-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S4x4096x4096 .f32) (main_arg1 : FVec F S8x4096 .f32) (main_arg2 : IVec S4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  main_v8
-- ==== Kernel.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1x1x4096 : Shape := ⟨3, ![1, 1, 4096]⟩
abbrev S1x512x4096 : Shape := ⟨3, ![1, 512, 4096]⟩

abbrev nBuf : Space → Nat
  | .hbm => 24
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096, .f32⟩
  | .hbm, ⟨22, _⟩ => ⟨S1x1x4096, .f32⟩
  | .hbm, ⟨23, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_c_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_v6 : Ref sig .tc := ⟨.hbm, 12, rfl⟩
abbrev main_call0_v7 : Ref sig .tc := ⟨.hbm, 13, rfl⟩
abbrev main_call0_c_2 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x512x4096 : S1x1x4096.Broadcasts S1x512x4096
  gather_S8x4096_S4096x2_S4096_n_01_n_n_01_1_11_wf : GatherDims.WF S8x4096 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

def gather_S8x4096_S4096x2_S4096_n_01_n_n_01_1_11 : GatherDims S8x4096 S4096x2 S4096 where
  offsetDims := []
  collapsedSliceDims := [0, 1]
  operandBatchingDims := []
  startIndicesBatchingDims := []
  startIndexMap := [0, 1]
  indexVectorDim := 1
  sliceSizes := ![1, 1]
  wf := gather_S8x4096_S4096x2_S4096_n_01_n_n_01_1_11_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S8x4096 : Shape := ⟨2, ![8, 4096]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1, .i32⟩
  | .hbm, ⟨20, _⟩ => ⟨S4096x2, .i32⟩
  | .hbm, ⟨21, _⟩ => ⟨S4096, .f32⟩
  | .hbm, ⟨22, _⟩ => ⟨S1x1x4096, .f32⟩
  | .hbm, ⟨23, _⟩ => ⟨S4x4096x4096, .f32⟩
  | .hbm, ⟨24, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  gather_S8x4096_S4096x2_S4096_n_01_n_n_01_1_11_wf : GatherDims.WF S8x4096 S4096x2 S4096 [] [0, 1] [] [0, 1] [] 1 ![1, 1]

variable [Facts₀]

def gather_S8x4096_S4096x2_S4096_n_01_n_n_01_1_11 : GatherDims S8x4096 S4096x2 S4096 where
  offsetDims := []
  collapsedSliceDims := [0, 1]
  operandBatchingDims := []
  startIndicesBatchingDims := []
  startIndexMap := [0, 1]
  indexVectorDim := 1
  sliceSizes := ![1, 1]
  wf := gather_S8x4096_S4096x2_S4096_n_01_n_n_01_1_11_wf

class Facts : Prop extends Facts₀ where

variable [Facts]
-- ==== Proof.LaneScale.lean ====
/-
  The mathematics of this certificate, in one definition.

  The tensor `x` has shape [4, 4096, 4096] and the weight vector `w` has 4096 entries, one per lane (a lane is
  a value of the last coordinate). The result scales every entry by the weight of its lane:

      out[b, s, d] = x[b, s, d] · w[d].

  Both programs compute the SAME weight vector from the 8 × 4096 table and the 4096 row numbers (one gather, with
  the same preparation of the row numbers), so the weight vector stays an opaque argument here. They differ only in
  how the product is laid out: one program multiplies the whole tensor at once by the weights broadcast to its
  shape; the other walks the tensor in 32 blocks of shape [1, 512, 4096] and multiplies each block by the weights
  broadcast over the block's 512 rows. No algebraic law is needed to join the two — entry by entry both are the one
  product `x[b, s, d] · w[d]` — so nothing here depends on the entries being finite.
-/
import Idealize.ShloMosaic.PureOps
import Idealize.ShloMosaic.Lib.ValueIdx

noncomputable section

namespace Cert.LaneScale

open Idealize.ShloMosaic

variable {F : FTy → Type} [FloatOps F]

/-- The tensor's shape, [4, 4096, 4096]. -/
abbrev Tensor : Shape := ⟨3, ![4, 4096, 4096]⟩
/-- The weight vector's shape, [4096]. -/
abbrev Lanes : Shape := ⟨1, ![4096]⟩

/-- The lane of a tensor entry — its last coordinate — as an index of the weight vector. -/
abbrev lane (i : Tensor.Idx) : Lanes.Idx := fun a => match a with
  | ⟨0, _⟩ => ⟨(i 2).val, (i 2).isLt⟩

/-- `out[b, s, d] = x[b, s, d] · w[d]`: every entry scaled by the weight of its lane. -/
def scaleLanes (x : Tensor.Idx → Elt F .f32) (w : Lanes.Idx → Elt F .f32) : Tensor.Idx → Elt F .f32 :=
  fun i => FloatOps.mulf (x i) (w (lane i))

theorem scaleLanes_apply (x : Tensor.Idx → Elt F .f32) (w : Lanes.Idx → Elt F .f32) (i : Tensor.Idx) :
    scaleLanes x w i = FloatOps.mulf (x i) (w (lane i)) := rfl

end Cert.LaneScale

end
-- ==== Proof.HostWeights.lean ====
/-
  The weights, on the blocked program's side. Before its grid is entered the host prepares, from the 8 × 4096 table and
  the 4096 row numbers, the weight vector `w`: for lane `d` the table's entry at (row number of `d`, `d`), each of the
  two coordinates with its axis' size added when negative — one gather. It then re-lays `w` as a [1, 1, 4096] array, whose
  entry (0, 0, d) is `w[d]`; that array is what the grid's second window stages.
-/
import proofs.«148418_j35485019800370_2_alg».proof.Proof.Gen.KernelIdeal.Frame
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The gather's start indices, one pair (row, lane) per lane `d`: the row number given for lane `d` and `d` itself,
    each with the size of its axis added when negative (8 rows, 4096 lanes). -/
def starts (rows : (⟨S4096, .i32⟩ : BufTy).Contents (Elt F)) : (⟨S4096x2, .i32⟩ : BufTy).Contents (Elt F) :=
  concatenate S4096x2 1
    [⟨S4096x1, broadcastInDim S4096x1 ![0] bcast_S4096_S4096x1_0
        (select (cmpi .slt rows (broadcastInDim S4096 ![] bcast_S_S4096 (constantI S_ 32 0#32)))
          (addi rows (broadcastInDim S4096 ![] bcast_S_S4096 (constantI S_ 32 8#32))) rows)⟩,
     ⟨S4096x1, broadcastInDim S4096x1 ![0] bcast_S4096_S4096x1_0
        (select (cmpi .slt (iotaInDim S4096 32 0) (broadcastInDim S4096 ![] bcast_S_S4096 (constantI S_ 32 0#32)))
          (addi (iotaInDim S4096 32 0) (broadcastInDim S4096 ![] bcast_S_S4096 (constantI S_ 32 4096#32))) (iotaInDim S4096 32 0))⟩]
    concatenates_S4096x1_S4096x1_S4096x2_d1

/-- The weight vector: for each lane, the table's entry at that lane's start pair. -/
def weights (table : (⟨S8x4096, .f32⟩ : BufTy).Contents (Elt F)) (rows : (⟨S4096, .i32⟩ : BufTy).Contents (Elt F)) :
    (⟨S4096, .f32⟩ : BufTy).Contents (Elt F) :=
  Host.gather gather_S8x4096_S4096x2_S4096_n_01_n_n_01_1_11 table (starts rows)

set_option maxHeartbeats 2000000 in
/-- When the grid is entered, the array the second window stages is the weight vector re-laid as [1, 1, 4096]: the
    host operations before the grid, composed. -/
theorem staged_weights (c : Dev nD) :
    (V m c main_call0_v15 : S1x1x4096.Idx → Elt F .f32)
      = shapeCast S1x1x4096 (weights (m ((c : Thread nD τ).loc main_arg1)) (m ((c : Thread nD τ).loc main_arg2))) shapeCasts_S4096_S1x1x4096 := by
  dsimp only [Gen.V, Gen.hostOps0]
  after_results
  unfold weights starts
  rfl

/-- The re-laid weights at (0, 0, d) are the weight of lane `d`. -/
theorem relaid_apply (w : S4096.Idx → Elt F .f32) (j : S1x1x4096.Idx) (k : S4096.Idx) (hk : (k 0).val = (j 2).val) :
    shapeCast S1x1x4096 w shapeCasts_S4096_S1x1x4096 j = w k := by
  refine shapeCast_apply w shapeCasts_S4096_S1x1x4096 j k ?_
  rw [Shape.rowMajor_val_one, Shape.rowMajor_val_three, hk]
  have h0 : (j 0).val < 1 := (j 0).isLt
  have h1 : (j 1).val < 1 := (j 1).isLt
  show (j 2).val = ((j 0).val * 1 + (j 1).val) * 4096 + (j 2).val
  omega

end Cert.KernelIdeal.Blocks

end
-- ==== Proof.KernelBlocks.lean ====
/-
  The blocked program's side. Before the grid is entered the host gathers the weight vector `w` (4096 entries) and
  re-lays it as a [1, 1, 4096] array. The grid has 4 × 8 = 32 points (b, r); at point (b, r) the body reads block
  (b, r, 0) of the tensor — the 512 rows `512 r … 512 r + 511` of batch `b`, all 4096 lanes —, reads the one block of the
  re-laid weights, broadcasts the weights over the 512 rows, multiplies, and writes the product back as block (b, r, 0)
  of the result. So at block index (0, s, d) the point writes `x[b, 512 r + s, d] · w[d]`, which is the entry
  (b, 512 r + s, d) of the tensor scaled by the weight of its lane; and the 32 blocks tile the whole result (the block
  holding entry (b, q, d) is the one at point (b, q / 512)). Hence after the run the result array is the tensor with
  every entry scaled by the weight of its lane.
-/
import proofs.«148418_j35485019800370_2_alg».proof.Proof.Gen.KernelIdeal.Value
import proofs.«148418_j35485019800370_2_alg».proof.Proof.LaneScale
import proofs.«148418_j35485019800370_2_alg».proof.Proof.HostWeights
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.StableHlo
open Cert.LaneScale

variable {F : FTy → Type} [FloatOps F]
variable (m : (ℓ : Loc nD τ sig) → Buf (Elt F) ℓ) (ρ : Dev nD → PrngReg)

/-! ## What one grid point leaves in its output block -/

theorem zeros3 : (![0, 0, 0] : Fin 3 → Nat) = fun _ => 0 := funext fun a => by fin_cases a <;> rfl

/-- At block index `y = (0, s, d)` the body leaves the tensor block's entry at `y` times the weights block's entry at
    (0, 0, d): the weights are broadcast over the block's rows. Stated over arbitrary blocks. -/
theorem body_entry (P0 : Vec F S1x512x4096 .f32) (P1 : Vec F S1x1x4096 .f32) (y : S1x512x4096.Idx) :
    out0_2 P0 P1 y = FloatOps.mulf (P0 y) (P1 (Value.ix2_1 y)) := by
  unfold out0_2
  rw [Value.canon2_eq, View.ld_unit_zero (S := S1x512x4096) zeros3, View.ld_unit_zero (S := S1x1x4096) zeros3]
  show FloatOps.mulf (P0 (Value.ix2_0 y)) (P1 (Value.ix2_1 y)) = _
  have e : Value.ix2_0 y = y := by
    funext a; apply Fin.ext
    have h0 : (y 0).val < 1 := (y 0).isLt
    match a with
    | ⟨0, _⟩ => show 0 = (y 0).val; omega
    | ⟨1, _⟩ => rfl
    | ⟨2, _⟩ => rfl
  rw [e]

/-! ## The blocks' places, decided over the 32 grid points -/

/-- At every point the tensor's block and the result's block sit at the same block index, the weights' block at
    (0, 0, 0), and the result's block index is (b, r, 0) with `b ≤ 3`, `r ≤ 7`. -/
theorem block_places : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = 0 ∧ win0_1.index t (1 : Fin 3) = 0 ∧ win0_1.index t (2 : Fin 3) = 0
    ∧ win0_2.index t (0 : Fin 3) ≤ 3 ∧ win0_2.index t (1 : Fin 3) ≤ 7 ∧ win0_2.index t (2 : Fin 3) = 0 :=
  (by decide +kernel : ∀ t : Fin grid0.N, _)

/-- Every block index (b, r, 0) with `b < 4`, `r < 8` is some point's. -/
theorem every_block : ∀ (b : Fin 4) (r : Fin 8), ∃ t : Fin cfg0.N, win0_2.index t = ![b.val, r.val, 0] :=
  (by decide +kernel : ∀ (b : Fin 4) (r : Fin 8), ∃ t : Fin grid0.N, win0_2.index t = ![b.val, r.val, 0])

/-! ## What a point writes back, and the whole array -/

/-- WHAT POINT `t` WRITES BACK is block `t` of the tensor scaled lane by lane by the weights. -/
theorem flushed_eq (c : Dev nD) (t : Fin cfg0.N) :
    (dats m 0 c).flushed 2 t = ((cfg0.win 2).blk t).view.read (Elt F)
      (scaleLanes (V m c main_arg0) (weights (m ((c : Thread nD τ).loc main_arg1)) (m ((c : Thread nD τ).loc main_arg2)))) := by
  rw [Value.flushed2]
  obtain ⟨e0, e1, e2, e3, e4, e5, e6, e7, e8⟩ := block_places t
  funext j
  show out0_2 (iblk m c 0 t) (iblk m c 1 t) j = _
  refine (body_entry (iblk m c 0 t) (iblk m c 1 t) j).trans ?_
  show FloatOps.mulf (V m c main_arg0 (((cfg0.win 0).blk t).view.emb j)) (V m c main_call0_v15 (((cfg0.win 1).blk t).view.emb (Value.ix2_1 j)))
    = FloatOps.mulf (V m c main_arg0 (((cfg0.win 2).blk t).view.emb j))
        (weights (m ((c : Thread nD τ).loc main_arg1)) (m ((c : Thread nD τ).loc main_arg2)) (lane (((cfg0.win 2).blk t).view.emb j)))
  have hj0 : (j 0).val < 1 := (j 0).isLt
  have hj1 : (j 1).val < 512 := (j 1).isLt
  have hj2 : (j 2).val < 4096 := (j 2).isLt
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  have h1 : V m c main_call0_v15 (((cfg0.win 1).blk t).view.emb (Value.ix2_1 j))
      = weights (m ((c : Thread nD τ).loc main_arg1)) (m ((c : Thread nD τ).loc main_arg2)) (lane (((cfg0.win 2).blk t).view.emb j)) := by
    rw [staged_weights]
    refine relaid_apply _ _ _ ?_
    show win0_2.index t (2 : Fin 3) * 4096 + 1 * (j 2).val = win0_1.index t (2 : Fin 3) * 4096 + 1 * (j 2).val
    omega
  rw [h0, h1]

/-- An entry of the result array is in point `t`'s block iff each coordinate is in the block's range on its axis. -/
theorem mem_block (t : Fin cfg0.N) (i : S4x4096x4096.Idx) :
    i ∈ ((cfg0.win 2).blk t).view.set ↔ ∀ a : Fin 3, win0_2.index t a * S1x512x4096.size a ≤ (i a).val ∧ (i a).val < win0_2.index t a * S1x512x4096.size a + S1x512x4096.size a := by
  show i ∈ ((View.whole main_v0).slice (win0_2.rect t)).set ↔ _
  rw [View.set_slice_whole, Rect.mem_set_unit]
  exact Iff.rfl

/-- The blocks tile the result: entry (b, q, d) is in the block of the point at (b, q / 512). -/
theorem blocks_cover (i : S4x4096x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := every_block ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- THE RESULT ARRAY after the run: the tensor argument with every entry scaled by the weight of its lane. -/
theorem final (c : Dev nD) : (dats m 0 c).arrAt 2 cfg0.N
    = scaleLanes (m ((c : Thread nD τ).loc main_arg0)) (weights (m ((c : Thread nD τ).loc main_arg1)) (m ((c : Thread nD τ).loc main_arg2))) := by
  rw [← V_main_arg0 m c]
  exact (dats m 0 c).arrAt_eq_of_cover 2 _ (fun t _ => flushed_eq m c t) blocks_cover

/-! ## The run, read -/

/-- Every weakly fair execution terminates with the result array at the scaled tensor and the arguments unchanged. -/
theorem run : θ_run defs (onTc (τ := τ) (main (F := F))) ⟨m, fun _ => 0, ρ⟩ fun r => ∀ c : Dev nD,
      r.2.mem ((c : Thread nD τ).loc main_v0)
        = scaleLanes (m ((c : Thread nD τ).loc main_arg0)) (weights (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.ReferenceLanes.lean ====
/-
  The reference's side. It gathers the weight vector, broadcasts it first to shape [1, 1, 4096] and then to the
  tensor's shape [4, 4096, 4096], and multiplies the whole tensor by the result. Read at an entry (b, s, d), the
  second broadcast reads the [1, 1, 4096] array at (0, 0, d) and the first reads the weight vector at d: the entry's
  lane. So the reference's result is `x[b, s, d] · w[d]` with `w` the gathered weights.
-/
import proofs.«148418_j35485019800370_2_alg».proof.Proof.Gen.ReferenceIdeal.Read
import proofs.«148418_j35485019800370_2_alg».proof.Proof.LaneScale

noncomputable section

namespace Cert.ReferenceIdeal.Lanes

open Cert.ReferenceIdeal Cert.ReferenceIdeal.Read Idealize.ShloMosaic Cert.LaneScale

variable {F : FTy → Type} [FloatOps F]

/-- The two broadcasts, composed, read the weight vector at the entry's lane. -/
theorem broadcasts_read_lane (i : S4x4096x4096.Idx) : idx_main_v15 (idx_main_v16 i) = lane i :=
  funext fun a => match a with | ⟨0, _⟩ => rfl

/-- The reference's result is every entry of the tensor scaled by the gathered weight of its lane. -/
theorem result_eq (x0 : (⟨S4x4096x4096, .f32⟩ : BufTy).Contents (Elt F)) (x1 : (⟨S8x4096, .f32⟩ : BufTy).Contents (Elt F))
    (x2 : (⟨S4096, .i32⟩ : BufTy).Contents (Elt F)) :
    val_main_v17 (F := F) x0 x1 x2 = scaleLanes x0 (val_main_v14 (F := F) x1 x2) := by
  funext i
  rw [val_main_v17_apply, val_main_v16_apply, val_main_v15_apply, broadcasts_read_lane, scaleLanes_apply]

end Cert.ReferenceIdeal.Lanes

end
-- ==== Proof.SameWeights.lean ====
/-
  The two programs prepare the weight vector in the same way: the same preparation of the row numbers (the size of the
  axis added to a negative one, the lane numbers beside them) and the same gather from the table. Operation by operation
  the two descriptions are one term, so the weights are never opened: the certificate carries them as one vector.
-/
import proofs.«148418_j35485019800370_2_alg».proof.Proof.HostWeights
import proofs.«148418_j35485019800370_2_alg».proof.Proof.Gen.ReferenceIdeal.Read

noncomputable section

namespace Cert.SameWeights

open Idealize.ShloMosaic

variable {F : FTy → Type} [FloatOps F]

/-- The reference's gathered weights are the blocked program's, for the same table and row numbers. -/
theorem weights_eq (table : (⟨Cert.KernelIdeal.S8x4096, .f32⟩ : BufTy).Contents (Elt F))
    (rows : (⟨Cert.KernelIdeal.S4096, .i32⟩ : BufTy).Contents (Elt F)) :
    Cert.ReferenceIdeal.Read.val_main_v14 (F := F) table rows = Cert.KernelIdeal.Blocks.weights (F := F) table rows := by
  unfold Cert.ReferenceIdeal.Read.val_main_v14 Cert.ReferenceIdeal.Read.val_main_v13 Cert.ReferenceIdeal.Read.val_main_v11
    Cert.ReferenceIdeal.Read.val_main_v12 Cert.ReferenceIdeal.Read.val_main_v5 Cert.ReferenceIdeal.Read.val_main_v10
    Cert.ReferenceIdeal.Read.val_main_v2 Cert.ReferenceIdeal.Read.val_main_v4 Cert.ReferenceIdeal.Read.val_main_v7
    Cert.ReferenceIdeal.Read.val_main_v9 Cert.ReferenceIdeal.Read.val_main_v1 Cert.ReferenceIdeal.Read.val_main_v3
    Cert.ReferenceIdeal.Read.val_main_v6 Cert.ReferenceIdeal.Read.val_main_v8 Cert.ReferenceIdeal.Read.val_main_v0
    Cert.ReferenceIdeal.Read.val_main_c Cert.ReferenceIdeal.Read.val_main_c_0 Cert.ReferenceIdeal.Read.val_main_c_1
    Cert.ReferenceIdeal.Read.val_main_c_2 Cert.KernelIdeal.Blocks.weights Cert.KernelIdeal.Blocks.starts
  rfl

end Cert.SameWeights

end
-- ==== Proof.lean ====
/-
  Lane-wise scaling by gathered weights: `out[b, s, d] = x[b, s, d] · w[d]` over x : f32[4, 4096, 4096], where the
  weight of lane `d` is gathered from an 8 × 4096 table at (row number of `d`, `d`).

  Both programs gather the SAME weight vector, by the same host operations on the table and the row numbers
  (`SameWeights`); the certificate never opens the gather. They differ in how they multiply. The reference broadcasts
  the weights to the tensor's shape and multiplies the whole tensor at once: at entry (b, s, d) the two broadcasts read
  the weight of lane `d` (`ReferenceLanes`). The blocked program walks a 4 × 8 grid; at point (b, r) it multiplies the
  [1, 512, 4096] block (b, r, 0) of the tensor by the weights broadcast over the block's rows and writes the product to
  block (b, r, 0) of the result; the 32 blocks tile the result, so afterwards the result array is again the tensor with
  every entry scaled by the weight of its lane (`KernelBlocks`, over the weights as the host staged them:
  `HostWeights`). Entry by entry both results are the one product `x[b, s, d] · w[d]` (`LaneScale`): no algebraic law
  joins them, so the equality holds on all extended reals and finiteness of the inputs is not used.

  The idealized program is the printed program read at the exact instance (no operation was rewritten), so the
  idealization claim is trivially true; the three frames are the generated frame runs (the reference's frame is its
  generated run with the result dropped).
-/
import proofs.«148418_j35485019800370_2_alg».proof.Defs
import proofs.«148418_j35485019800370_2_alg».proof.Proof.Gen.Kernel
import proofs.«148418_j35485019800370_2_alg».proof.Proof.Gen.Kernel.Skeleton
import proofs.«148418_j35485019800370_2_alg».proof.Proof.Gen.Kernel.Launch
import proofs.«148418_j35485019800370_2_alg».proof.Proof.Gen.Kernel.Points
import proofs.«148418_j35485019800370_2_alg».proof.Proof.Gen.Kernel.Frame
import proofs.«148418_j35485019800370_2_alg».proof.Proof.Gen.KernelIdeal
import proofs.«148418_j35485019800370_2_alg».proof.Proof.Gen.KernelIdeal.Skeleton
import proofs.«148418_j35485019800370_2_alg».proof.Proof.Gen.KernelIdeal.Launch
import proofs.«148418_j35485019800370_2_alg».proof.Proof.Gen.KernelIdeal.Points
import proofs.«148418_j35485019800370_2_alg».proof.Proof.Gen.KernelIdeal.Frame
import proofs.«148418_j35485019800370_2_alg».proof.Proof.Gen.ReferenceIdeal
import proofs.«148418_j35485019800370_2_alg».proof.Proof.Gen.KernelIdeal.Value
import proofs.«148418_j35485019800370_2_alg».proof.Proof.Gen.ReferenceIdeal.Run
import proofs.«148418_j35485019800370_2_alg».proof.Proof.Gen.ReferenceIdeal.Read
import proofs.«148418_j35485019800370_2_alg».proof.Proof.Gen.Pre_finite_inputs
import proofs.«148418_j35485019800370_2_alg».proof.Proof.KernelBlocks
import proofs.«148418_j35485019800370_2_alg».proof.Proof.ReferenceLanes
import proofs.«148418_j35485019800370_2_alg».proof.Proof.SameWeights
import Idealize.ShloMosaic.Adequacy
import Idealize.ShloMosaic.Init

noncomputable section

namespace Cert.Proof

open Idealize.ShloMosaic Idealize.ShloMosaic.TcCoe Idealize.SL.Sem

/-- The printed program runs, leaving its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories that agree on the three arguments both programs end with the tensor scaled lane by lane by the
    gathered weights: the blocked program block by block, the reference through its two broadcasts; the weights are the
    same vector on both sides. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Lanes.result_eq, Cert.SameWeights.weights_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
